-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) (main_arg1 : IVec S128x1024 32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  main_v3
-- ==== Kernel.lean ====
abbrev S128x1024 : Shape := ⟨2, ![128, 1024]⟩
abbrev S128x1 : Shape := ⟨2, ![128, 1]⟩
abbrev S32x1024 : Shape := ⟨2, ![32, 1024]⟩
abbrev S32x1 : Shape := ⟨2, ![32, 1]⟩
abbrev S32 : Shape := ⟨1, ![32]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S128x1024, .i32⟩
  | .hbm, ⟨2, _⟩ => ⟨S128x1, .f32⟩
  | .hbm, ⟨3, _⟩ => ⟨S_, .f32⟩
  | .hbm, ⟨4, _⟩ => ⟨S_, .f32⟩
  | .local _ .vmem, ⟨0, _⟩ => ⟨S32x1024, .f32⟩
  | .local _ .vmem, ⟨1, _⟩ => ⟨S32x1024, .f32⟩
  | .local _ .vmem, ⟨2, _⟩ => ⟨S32x1024, .i32⟩
  | .local _ .vmem, ⟨3, _⟩ => ⟨S32x1024, .i32⟩
  | .local _ .vmem, ⟨4, _⟩ => ⟨S32x1, .f32⟩
  | .local _ .vmem, ⟨5, _⟩ => ⟨S32x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x1024_S32x1024_0_0 : ∀ a, (![0, 0] : Fin 2 → Nat) a + S32x1024.size a ≤ S32x1024.size a
  h_S32x1024 : 0 < S32x1024.numel
  natLt_1_32 : 1 < 32
  reduces_S32x1024_S32 : S32x1024.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  reducesTo_S128x1_S_d0_1 : S128x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S128x1024.size a
  hwx0_0 : ∀ i : grid0.Coords, EltTy.bits .f32 = 32 ∨ (Rect.block (s := S128x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S128x1024.size a
  hwx0_1 : ∀ i : grid0.Coords, EltTy.bits .i32 = 32 ∨ (Rect.block (s := S128x1024) S32x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S128x1.size a
  hwx0_2 : ∀ i : grid0.Coords, EltTy.bits .f32 = 32 ∨ (Rect.block (s := S128x1) S32x1.size (cc0_transform_2 i) (hinb0_2 i)).WholeWords (EltTy.packing .f32)

variable [Facts₀]

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S_ : Shape := ⟨0, ![]⟩
abbrev S128x1024x1 : Shape := ⟨3, ![128, 1024, 1]⟩
abbrev S128x1x1024 : Shape := ⟨3, ![128, 1, 1024]⟩
abbrev S128x1024x1024 : Shape := ⟨3, ![128, 1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .i32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024x1, .f32⟩
  | .hbm, ⟨11, _⟩ => ⟨S_, .f32⟩
  | .hbm, ⟨12, _⟩ => ⟨S128x1024x1, .f32⟩
  | .hbm, ⟨13, _⟩ => ⟨S128x1024x1, .f32⟩
  | .hbm, ⟨14, _⟩ => ⟨S128x1x1024, .f32⟩
  | .hbm, ⟨15, _⟩ => ⟨S128x1024x1024, .f32⟩
  | .hbm, ⟨16, _⟩ => ⟨S128x1024x1024, .f32⟩
  | .hbm, ⟨17, _⟩ => ⟨S128x1024x1024, .f32⟩
  | .hbm, ⟨18, _⟩ => ⟨S_, .i32⟩
  | .hbm, ⟨19, _⟩ => ⟨S128x1024, .i32⟩
  | .hbm, ⟨20, _⟩ => ⟨S128x1024, .i1⟩
  | .hbm, ⟨21, _⟩ => ⟨S128x1024x1, .i1⟩
  | .hbm, ⟨22, _⟩ => ⟨S_, .i32⟩
  | .hbm, ⟨23, _⟩ => ⟨S128x1024, .i32⟩
  | .hbm, ⟨24, _⟩ => ⟨S128x1024, .i1⟩
  | .hbm, ⟨25, _⟩ => ⟨S128x1x1024, .i1⟩
  | .hbm, ⟨26, _⟩ => ⟨S128x1024x1024, .i1⟩
  | .hbm, ⟨27, _⟩ => ⟨S128x1024x1024, .i1⟩
  | .hbm, ⟨28, _⟩ => ⟨S128x1024x1024, .i1⟩
  | .hbm, ⟨29, _⟩ => ⟨S_, .f32⟩
  | .hbm, ⟨30, _⟩ => ⟨S128x1024x1024, .f32⟩
  | .hbm, ⟨31, _⟩ => ⟨S128x1024x1024, .f32⟩
  | .hbm, ⟨32, _⟩ => ⟨S_, .f32⟩
  | .hbm, ⟨33, _⟩ => ⟨S_, .f32⟩
  | .hbm, ⟨34, _⟩ => ⟨S128x1024x1024, .f32⟩
  | .hbm, ⟨35, _⟩ => ⟨S128x1024x1024, .f32⟩
  | .hbm, ⟨36, _⟩ => ⟨S_, .f32⟩
  | .hbm, ⟨37, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S_d0_1_2 : S128x1024x1024.ReducesTo [0, 1, 2] S_
  h_S_ : 0 < S_.numel

variable [Facts₀]

class Facts : Prop extends Facts₀ where

variable [Facts]
-- ==== Proof.HingeLaw.lean ====
/-
  The pairwise hinge ranking loss of one row, and why it separates.

  A row holds scores p_l in [0, 1] and labels w_l. Its loss is the sum, over the pairs (i, k) with w_i = 0 and w_k = 1,
  of max (1 + p_i - p_k) 0. Because every score lies in [0, 1], 1 + p_i - p_k is never negative, the maximum is the
  term itself, and the double sum splits into counts and masked sums:
      n0 * n1 * 1 + n1 * (sum of p over the labels 0) - n0 * (sum of p over the labels 1),
  n0 and n1 the numbers of labels 0 and 1. The identity is one of real numbers; on the extended reals it holds when
  every score is the logistic function of a real, which is a real strictly between 0 and 1.
-/
import Idealize.ShloMosaic.PureOps.Ideal
import Idealize.ShloMosaic.PureOps.Ideal.Laws
import Idealize.ShloMosaic.PureOps.IdealRules

noncomputable section

namespace Cert.Hinge

open Idealize.ShloMosaic

/-! ## The logistic function on the reals -/

/-- The logistic function of a real. -/
def sig (r : ℝ) : ℝ := (1 + Real.exp (-r))⁻¹

theorem sig_pos (r : ℝ) : 0 < sig r := by
  unfold sig
  have := Real.exp_pos (-r)
  exact inv_pos.mpr (by linarith)

theorem sig_lt_one (r : ℝ) : sig r < 1 := by
  unfold sig
  have := Real.exp_pos (-r)
  exact inv_lt_one_of_one_lt₀ (by linarith)

/-- On the extended reals the logistic function of a real is that real. -/
theorem logistic_coe (r : ℝ) : Ideal.logistic (r : EReal) = ((sig r : ℝ) : EReal) := Ideal.logistic_coe r

/-! ## A label's indicator -/

/-- 1 where the label `w` is `v`, 0 elsewhere. -/
def ind (w v : BitVec 32) : ℝ := if w = v then 1 else 0

/-! ## The separation, over the reals -/

/-- A row's pairwise hinge loss is its separated form, for scores in [0, 1] and any two sets of positions. -/
theorem row_law {ι : Type} [Fintype ι] (p : ι → ℝ) (a c : ι → ℝ) (hp : ∀ i, 0 ≤ p i ∧ p i ≤ 1)
    (ha : ∀ i, a i = 0 ∨ a i = 1) (hc : ∀ i, c i = 0 ∨ c i = 1) :
    (∑ i, ∑ k, if a i = 1 ∧ c k = 1 then max (1 + p i - p k) 0 else 0)
      = (∑ i, a i) * (∑ k, c k) * 1 + (∑ k, c k) * (∑ i, p i * a i) - (∑ i, a i) * (∑ k, p k * c k) := by
  have h : ∀ i k, (if a i = 1 ∧ c k = 1 then max (1 + p i - p k) 0 else 0)
      = a i * c k + (p i * a i) * c k - a i * (p k * c k) := by
    intro i k
    have hi := hp i
    have hk := hp k
    rw [max_eq_left (by linarith)]
    rcases ha i with h0 | h1 <;> rcases hc k with h0' | h1'
    · rw [h0, h0']; norm_num
    · rw [h0, h1']; norm_num
    · rw [h1, h0']; norm_num
    · rw [h1, h1']; norm_num
  simp only [h, Finset.sum_sub_distrib, Finset.sum_add_distrib, ← Finset.mul_sum, ← Finset.sum_mul]
  ring

/-! ## Finite real sums on the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-! ## The two forms on the extended reals -/

/-- The label's indicator as a kernel computes it: compare, widen the bit to a word, convert the word to a float. -/
def kmask (w v : BitVec 32) : EReal := FloatOps.sitofp (F := Ideal) .f32 ((IntOp.cmpi .eq w v).setWidth 32)

theorem kmask_eq (w v : BitVec 32) : kmask w v = ((ind w v : ℝ) : EReal) := by
  show (((((IntOp.cmpi .eq w v).setWidth 32).toInt : ℤ) : ℝ) : EReal) = _
  unfold ind IntOp.cmpi
  by_cases h : w = v
  · subst h; simp
  · have hb : (w == v) = false := by simpa using h
    simp [h, hb]

/-- The float word of 1.0 is the extended real 1. -/
theorem one_word : Ideal.ofBits .f32 0x3F800000#32 = 1 := IdealRules.sign_bit.ideal_onePat .f32

/-- The separated form of a row: counts and masked sums of the scores `logistic (u l)`. -/
def rowK (u : Fin 1024 → EReal) (w : Fin 1024 → BitVec 32) : EReal :=
  ((∑ l, kmask (w l) 0#32) * (∑ l, kmask (w l) 1#32)) * Ideal.ofBits .f32 0x3F800000#32
    + (∑ l, kmask (w l) 1#32) * (∑ l, Ideal.logistic (u l) * kmask (w l) 0#32)
    - (∑ l, kmask (w l) 0#32) * (∑ l, Ideal.logistic (u l) * kmask (w l) 1#32)

/-- One pair's term of the pairwise form: the hinge where the first label is 0 and the second is 1, zero elsewhere. -/
def pairTerm (ui uk : EReal) (wi wk : BitVec 32) : EReal :=
  Scalar.select (IntOp.andi (IntOp.cmpi .eq wi 0#32) (IntOp.cmpi .eq wk 1#32))
    (max ((Ideal.ofBits .f32 0x3F800000#32 + Ideal.logistic ui) - Ideal.logistic uk) (Ideal.ofBits .f32 0x00000000#32))
    (Ideal.ofBits .f32 0x00000000#32)

/-- A pair's term over real scores: a real, the hinge under the two indicators. -/
theorem pairTerm_coe (ri rk : ℝ) (wi wk : BitVec 32) :
    pairTerm (ri : EReal) (rk : EReal) wi wk
      = ((if ind wi 0#32 = 1 ∧ ind wk 1#32 = 1 then max (1 + sig ri - sig rk) 0 else 0 : ℝ) : EReal) := by
  unfold pairTerm ind IntOp.cmpi IntOp.andi Scalar.select
  rw [logistic_coe, logistic_coe, one_word, Ideal.ofBits_zero_f32]
  by_cases h0 : wi = 0#32 <;> by_cases h1 : wk = 1#32
  · subst h0 h1
    simp only [beq_self_eq_true, BitVec.ofBool_true, BitVec.and_self, if_true, and_self]
    rw [← EReal.coe_one, ← EReal.coe_add, ← EReal.coe_sub, ← EReal.coe_zero, ← coe_max]
  · have hb : (wk == 1#32) = false := by simpa using h1
    subst h0
    simp [hb, h1]
  · have hb : (wi == 0#32) = false := by simpa using h0
    simp [hb, h0]
  · have hb : (wi == 0#32) = false := by simpa using h0
    simp [hb, h0]

/-- THE ROW: over real inputs the pairwise form of a row is its separated form. -/
theorem row_bridge (u : Fin 1024 → EReal) (w : Fin 1024 → BitVec 32) (hu : ∀ l, ∃ r : ℝ, u l = r) :
    (∑ i, ∑ k, pairTerm (u i) (u k) (w i) (w k)) = rowK u w := by
  choose ur hur using hu
  obtain rfl : u = fun l => ((ur l : ℝ) : EReal) := funext hur
  unfold rowK
  simp only [pairTerm_coe, logistic_coe, kmask_eq, one_word, ← coe_sum, ← EReal.coe_mul]
  rw [← EReal.coe_one, ← EReal.coe_mul, ← EReal.coe_add, ← EReal.coe_sub]
  refine congrArg _ ?_
  refine row_law (fun l => sig (ur l)) (fun l => ind (w l) 0#32) (fun l => ind (w l) 1#32)
    (fun l => ⟨(sig_pos _).le, (sig_lt_one _).le⟩) (fun l => ?_) (fun l => ?_)
  · unfold ind; by_cases h : w l = 0#32 <;> simp [h]
  · unfold ind; by_cases h : w l = 1#32 <;> simp [h]

/-! ## All rows -/

/-- The loss in its separated form: zero plus the sum over the rows of each row's separated form. -/
def loss (x : Fin 128 → Fin 1024 → EReal) (y : Fin 128 → Fin 1024 → BitVec 32) : EReal :=
  Ideal.ofBits .f32 0x00000000#32 + ∑ b, rowK (x b) (y b)

/-- The loss in its pairwise form: zero plus the sum over the rows and the pairs of each pair's term. -/
def pairLoss (x : Fin 128 → Fin 1024 → EReal) (y : Fin 128 → Fin 1024 → BitVec 32) : EReal :=
  Ideal.ofBits .f32 0x00000000#32 + ∑ b, ∑ i, ∑ k, pairTerm (x b i) (x b k) (y b i) (y b k)

/-- THE LAW: over real inputs the pairwise form of the loss is its separated form. -/
theorem loss_bridge (x : Fin 128 → Fin 1024 → EReal) (y : Fin 128 → Fin 1024 → BitVec 32) (hx : ∀ b l, ∃ r : ℝ, x b l = r) :
    pairLoss x y = loss x y := by
  unfold pairLoss loss
  exact congrArg _ (Finset.sum_congr rfl fun b _ => row_bridge (x b) (y b) (hx b))

end Cert.Hinge

end
-- ==== Proof.LibColumn.lean ====
/-
  A vector laid out as a column, read at an index.

  An [a] array reshaped to [a, 1] reads, at (i, u), the operand at i, whatever the unit coordinate u: both indices have
  the same position in row-major order.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KernelRow.lean ====
/-
  One row of the kernel's block.

  The body loads a [32, 1024] block of scores' arguments and a [32, 1024] block of labels, takes the logistic function
  of the first, builds the two label indicators (label 0, label 1) as floats, sums each indicator and each masked
  score along the row (four lane sums, each kept as a [32, 1] column), and combines the four columns as
      n0 * n1 * 1 + n1 * sum0 - n0 * sum1.
  Read at row r of the column this is the separated form of the row's pairwise hinge loss, a function of row r of the
  two blocks alone.
-/
import proofs.«164452_j3332894622720_2_alg».proof.Proof.Gen.KernelIdeal.Skeleton
import proofs.«164452_j3332894622720_2_alg».proof.Proof.HingeLaw
import proofs.«164452_j3332894622720_2_alg».proof.Proof.LibColumn
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Cert.Hinge

/-- A lane sum of a [32, 1024] block kept as a [32, 1] column reads, at (r, u), as the plain sum along row r. -/
theorem laneSum_col (src : FVec Ideal S32x1024 .f32) (h : S32x1024.Reduces [1] S32) (hφ : FKind.Formats .f32)
    (hacc : (0x00000000#32 : BitVec 32) = FKind.add.neutral .f32 hφ) (hc : S32.ShapeCasts S32x1) (r : Fin 32) (u : Fin 1) :
    shapeCast S32x1 (multiReduction .add [1] S32 src 0x00000000#32 h hφ hacc) hc (ix2 r u) = ∑ l : Fin 1024, src (ix2 r l) :=
  (shapeCast_a_a1_apply _ hc r u).trans
    ((Ideal.multiReduction_add_single src _ h hφ hacc (ix1 r)).trans
      (Finset.sum_congr rfl fun l _ => congrArg src (funext fun a => Fin.ext (by
        match a with
        | ⟨0, _⟩ => rfl
        | ⟨1, _⟩ => rfl))))

/-- THE ROW: the body's stored column at (r, u) is the separated form of row r of the two loaded blocks. -/
theorem pay_apply (v0 : Vec Ideal S32x1024 .f32) (v2 : Vec Ideal S32x1024 .i32) (r : Fin 32) (u : Fin 1) :
    k0_pay1 (F := Ideal) v0 v2 (ix2 r u) = rowK (fun l => v0 (ix2 r l)) (fun l => v2 (ix2 r l)) := by
  unfold k0_pay1 rowK
  dsimp only
  have e : ∀ src : FVec Ideal S32x1024 .f32,
      shapeCast S32x1 (multiReduction .add [1] S32 src 0x00000000#32 reduces_S32x1024_S32 (.inl rfl) rfl) shapeCasts_S32_S32x1 (ix2 r u)
        = ∑ l : Fin 1024, src (ix2 r l) := fun src => laneSum_col src _ _ _ _ r u
  simp only [subf_apply, addf_apply, mulf_apply, broadcast_apply, e]
  rfl

end Cert.KernelIdeal.Row

end
-- ==== Proof.KernelArray.lean ====
/-
  From blocks of rows to the array of row losses.

  The grid has four points. Point t loads rows 32 t … 32 t + 31 of the two argument arrays (all 1024 columns) and writes
  back rows 32 t … 32 t + 31 of the [128, 1] result, one number per row: the separated form of that row's pairwise hinge
  loss. A row's number depends on that row of the arguments alone, so every block written back is a block of ONE
  array — the losses of all 128 rows — and the four blocks tile it: row i lies in the block of point i / 32.
-/
import proofs.«164452_j3332894622720_2_alg».proof.Proof.Gen.KernelIdeal.Frame
import proofs.«164452_j3332894622720_2_alg».proof.Proof.KernelRow
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Row Idealize.ShloMosaic.ValueIdx Cert.Hinge

variable (m : (ℓ : Loc nD τ sig) → Buf (Elt Ideal) ℓ)

/-- The losses of all rows: entry (i, 0) is the separated form of row i of the scores' arguments and the labels. -/
def rowLosses (x : S128x1024.Idx → EReal) (y : S128x1024.Idx → BitVec 32) : S128x1.Idx → EReal :=
  fun j => rowK (fun l => x (ix2 (⟨(j 0).val, idx2_lt0 j⟩ : Fin 128) l)) (fun l => y (ix2 (⟨(j 0).val, idx2_lt0 j⟩ : Fin 128) l))

/-- A body run on blocks that hold rows 32 tv … 32 tv + 31 of two arrays stores, at row r, the loss of row 32 tv + r. -/
theorem row_of_blocks (x0 : Vec Ideal S32x1024 .f32) (x1 : Vec Ideal S32x1024 .i32)
    (X : S128x1024.Idx → EReal) (Y : S128x1024.Idx → BitVec 32) (tv : Nat)
    (h0 : ∀ (r : Fin 32) (l : Fin 1024) (k : S128x1024.Idx), (k 0).val = 32 * tv + r.val → (k 1).val = l.val → x0 (ix2 r l) = X k)
    (h1 : ∀ (r : Fin 32) (l : Fin 1024) (k : S128x1024.Idx), (k 0).val = 32 * tv + r.val → (k 1).val = l.val → x1 (ix2 r l) = Y k)
    (j : S32x1.Idx) (i : S128x1.Idx) (hi : (i 0).val = 32 * tv + (j 0).val) :
    k0_pay1 (F := Ideal) x0 x1 j = rowLosses X Y i := by
  obtain ⟨r, u, rfl⟩ : ∃ (r : Fin 32) (u : Fin 1), j = ix2 r u := ⟨j 0, j 1, eq_ix2 j⟩
  rw [pay_apply]
  unfold rowLosses
  congr 1
  · funext l; exact h0 r l _ hi rfl
  · funext l; exact h1 r l _ hi rfl

theorem hz : (![0, 0] : Fin 2 → Nat) = fun _ => 0 := funext fun a => by fin_cases a <;> rfl

/-- The printed index maps over the grid: at point t every window is at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The scores' block at point t holds rows 32 t … 32 t + 31 of the first argument. -/
theorem scores_block (c : Dev nD) (t : Fin cfg0.N) (r : Fin 32) (l : Fin 1024) (k : S128x1024.Idx)
    (hk0 : (k 0).val = 32 * t.val + r.val) (hk1 : (k 1).val = l.val) :
    (iblk m c 0 t : Vec Ideal S32x1024 .f32) (ix2 r l) = (m ((c : Thread nD τ).loc main_arg0) : S128x1024.Idx → EReal) k := by
  obtain ⟨e0, e1, -, -, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 32 + 1 * r.val = (k 0).val; rw [e0, hk0]; omega
  | ⟨1, _⟩ => show win0_0.index t 1 * 1024 + 1 * l.val = (k 1).val; rw [e1, hk1]; omega

/-- The labels' block at point t holds rows 32 t … 32 t + 31 of the second argument. -/
theorem labels_block (c : Dev nD) (t : Fin cfg0.N) (r : Fin 32) (l : Fin 1024) (k : S128x1024.Idx)
    (hk0 : (k 0).val = 32 * t.val + r.val) (hk1 : (k 1).val = l.val) :
    (iblk m c 1 t : Vec Ideal S32x1024 .i32) (ix2 r l) = (m ((c : Thread nD τ).loc main_arg1) : S128x1024.Idx → BitVec 32) k := by
  obtain ⟨-, -, e0, e1, -, -⟩ := idx_facts t
  unfold iblk
  rw [View.read_apply]
  show V m c main_arg1 _ = m (c.tc.loc main_arg1) _
  unfold V
  congr 1
  funext a
  apply Fin.ext
  match a with
  | ⟨0, _⟩ => show win0_1.index t 0 * 32 + 1 * r.val = (k 0).val; rw [e0, hk0]; omega
  | ⟨1, _⟩ => show win0_1.index t 1 * 1024 + 1 * l.val = (k 1).val; rw [e1, hk1]; omega

/-- WHAT POINT t WRITES BACK is block t of the array of row losses. -/
theorem flushed_eq (c : Dev nD) (t : Fin cfg0.N) :
    (dats m 0 c).flushed 2 t = ((cfg0.win 2).blk t).view.read (Elt Ideal)
      (rowLosses (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S32x1024) hz]
  obtain ⟨-, -, -, -, e4, e5⟩ := idx_facts t
  funext j
  refine row_of_blocks (iblk m c 0 t) (iblk m c 1 t) _ _ t.val (fun r l k h0 h1 => scores_block m c t r l k h0 h1)
    (fun r l k h0 h1 => labels_block m c t r l k h0 h1) j _ ?_
  show win0_2.index t (0 : Fin 2) * 32 + 1 * (j 0).val = 32 * t.val + (j 0).val
  rw [e4]; omega

/-- An index of the result array is in point t's block iff each coordinate is in the block's range on its axis. -/
theorem mem_blk (t : Fin cfg0.N) (i : S128x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v0).slice (win0_2.rect t)).set ↔ _
  rw [View.set_slice_whole, Rect.mem_set_unit]
  exact Iff.rfl

/-- The four blocks tile the result array: row i lies in the block of point i / 32. -/
theorem cover (i : S128x1.Idx) : ∃ t : Fin cfg0.N, (cfg0.win 2).flush t = true ∧ i ∈ ((cfg0.win 2).blk t).view.set := by
  have hi0 : (i 0).val < 128 := (i 0).isLt
  have hi1 : (i 1).val < 1 := (i 1).isLt
  have hN : cfg0.N = 4 := N_0
  have ht : (i 0).val / 32 < cfg0.N := by rw [hN]; omega
  obtain ⟨-, -, -, -, e4, e5⟩ := idx_facts ⟨(i 0).val / 32, ht⟩
  refine ⟨⟨(i 0).val / 32, ht⟩, flush0_2 _, ?_⟩
  rw [mem_blk]
  intro a
  match a with
  | ⟨0, _⟩ =>
    show win0_2.index ⟨(i 0).val / 32, ht⟩ (0 : Fin 2) * 32 ≤ (i 0).val ∧ (i 0).val < win0_2.index ⟨(i 0).val / 32, ht⟩ (0 : Fin 2) * 32 + 32
    rw [e4]; show (i 0).val / 32 * 32 ≤ (i 0).val ∧ (i 0).val < (i 0).val / 32 * 32 + 32; omega
  | ⟨1, _⟩ =>
    show win0_2.index ⟨(i 0).val / 32, ht⟩ (1 : Fin 2) * 1 ≤ (i 1).val ∧ (i 1).val < win0_2.index ⟨(i 0).val / 32, ht⟩ (1 : Fin 2) * 1 + 1
    rw [e5]; omega

/-- THE RESULT ARRAY after the region: the losses of all 128 rows. -/
theorem final (c : Dev nD) : (dats m 0 c).arrAt 2 cfg0.N
    = rowLosses (m ((c : Thread nD τ).loc main_arg0)) (m ((c : Thread nD τ).loc main_arg1)) :=
  (dats m 0 c).arrAt_eq_of_cover 2 _ (fun t _ => flushed_eq m c t) cover

end Cert.KernelIdeal.Rows

end
-- ==== Proof.LibSumIdx3.lean ====
/-
  A sum over a rank-3 index set is the triple sum over its coordinates.

  The index set of a shape [n0, n1, n2] is the product of its three coordinate ranges, so a finite sum over it, in any
  commutative additive monoid, is the iterated sum over the coordinates, the index rebuilt from them.
-/
import Idealize.ShloMosaic.Lib.ValueIdx

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a [n, 1] index set is the sum over its rows. -/
theorem sum_idx_col {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  rw [Fin.sum_univ_one]

end Idealize.ShloMosaic.ValueIdx
-- ==== Proof.KernelRun.lean ====
/-
  The kernel's run: the region, then the host's sum.

  After the region the [128, 1] result array holds the losses of all rows. The host then adds its 128 entries to zero.
  A sum over the index set of a [128, 1] array is the sum over its 128 rows, so the program's result is zero plus the sum
  over the rows of each row's separated form: the loss in its separated form. The argument arrays are staged inputs
  only, so they end as they began.
-/
import proofs.«164452_j3332894622720_2_alg».proof.Proof.Gen.KernelIdeal.Frame
import proofs.«164452_j3332894622720_2_alg».proof.Proof.KernelArray
import proofs.«164452_j3332894622720_2_alg».proof.Proof.LibSumIdx3
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.SL.Sem Idealize.ShloMosaic.StableHlo
open Idealize.ShloMosaic.Pipeline (Dat)

namespace Cert.KernelIdeal.Total

open Cert.KernelIdeal Cert.KernelIdeal.Gen Cert.KernelIdeal.Rows Idealize.ShloMosaic.ValueIdx Cert.Hinge

variable (m : (ℓ : Loc nD τ sig) → Buf (Elt Ideal) ℓ) (ρ : Dev nD → PrngReg)

/-- The host's sum of the array of row losses is the loss in its separated form. -/
theorem sum_rowLosses (X : S128x1024.Idx → EReal) (Y : S128x1024.Idx → BitVec 32) :
    Host.reduceAdd (F := Ideal) (rowLosses X Y) (constant (F := Ideal) S_ .f32 0x00000000#32) reducesTo_S128x1_S_d0_1 h_S_
      = fun _ => loss (fun b l => X (ix2 b l)) (fun b l => Y (ix2 b l)) := by
  funext j
  simp only [Host.reduceAdd, Ideal.hostReduceAdd_def]
  refine (Ideal.hostReduceAdd_total reducesTo_S128x1_S_d0_1 (fun b => b.elim0) _ _ j).trans ?_
  rw [sum_idx_col]
  rfl

/-- What the host lines after the region leave in the result: the loss in its separated form. -/
theorem tail_eq (c : Dev nD) :
    Pipeline.afterTail₀ cfgs (dats m) 0 (V0 m) [hostOps1] c main_v1
      = fun _ => loss (fun b l => (m ((c.tc : Thread nD τ).loc main_arg0) : S128x1024.Idx → EReal) (ix2 b l))
          (fun b l => (m ((c.tc : Thread nD τ).loc main_arg1) : S128x1024.Idx → BitVec 32) (ix2 b l)) := by
  unfold Pipeline.afterTail₀
  show StableHlo.after hostOps1 _ (Proc.devRef .tc main_v1) = _
  after_results
  refine (congrArg (fun A : S128x1.Idx → EReal =>
      Host.reduceAdd (F := Ideal) A (constant (F := Ideal) S_ .f32 0x00000000#32) reducesTo_S128x1_S_d0_1 h_S_)
    ((Pipeline.withArrays_arr spec0 launch0.win.arr_inj c _ _ 2).trans (final m c))).trans ?_
  exact sum_rowLosses _ _

/-- The result buffer is an unscoped buffer that is no window's array. -/
theorem result_rest : main_v1 ∈ Pipeline.restRefs sig (cfgs 0).spec :=
  Pipeline.mem_restRefs_of main_v1 rfl (fun w => by fin_cases w <;> decide)

/-- THE KERNEL'S RUN: every weakly fair execution terminates with the result at the loss in its separated form and the
    arguments unchanged. -/
theorem run : θ_run defs (onTc (τ := τ) (main (F := Ideal))) ⟨m, fun _ => 0, ρ⟩ fun r => ∀ c : Dev nD,
      r.2.mem ((c.tc : Thread nD τ).loc main_v1)
        = (fun _ => loss (fun b l => (m ((c.tc : Thread nD τ).loc main_arg0) : S128x1024.Idx → EReal) (ix2 b l))
            (fun b l => (m ((c.tc : Thread nD τ).loc main_arg1) : S128x1024.Idx → BitVec 32) (ix2 b l)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.Reference.lean ====
/-
  The reference's result, entry by entry.

  The reference takes the logistic function of every argument as 1 / (1 + exp (-x)), forms for every row b and every pair
  (i, k) of positions the hinge max (1 + p(b,i) - p(b,k)) 0, keeps it where the label at (b,i) is 0 and the label at
  (b,k) is 1, puts zero elsewhere, and adds all 128 × 1024 × 1024 entries to zero. Read entry by entry that is the
  pairwise form of the loss: zero plus the sum over the rows of the sum over the pairs of the pair's term.
-/
import proofs.«164452_j3332894622720_2_alg».proof.Proof.Gen.ReferenceIdeal.Read
import proofs.«164452_j3332894622720_2_alg».proof.Proof.HingeLaw
import proofs.«164452_j3332894622720_2_alg».proof.Proof.LibSumIdx3
import Idealize.ShloMosaic.Lib.ValueIdx

noncomputable section

namespace Cert.ReferenceIdeal.Pairs

open Cert.ReferenceIdeal Cert.ReferenceIdeal.Gen Cert.ReferenceIdeal.Read Idealize.ShloMosaic Idealize.ShloMosaic.ValueIdx Cert.Hinge

/-- The quotient 1 / (1 + exp (-x)), with both ones the float word of 1.0, is the logistic function. -/
theorem spelled_logistic (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [one_word]

/-! ## Which entries of the arguments the entry (b, i, k) reads -/

theorem idx_score_i (b : Fin 128) (i k : Fin 1024) : idx_main_v6 (idx_main_v10 (ix3 b i k)) = ix2 b i :=
  funext fun a => Fin.ext (by match a with | ⟨0, _⟩ => rfl | ⟨1, _⟩ => rfl)
theorem idx_score_k (b : Fin 128) (i k : Fin 1024) : idx_main_v9 (idx_main_v11 (ix3 b i k)) = ix2 b k :=
  funext fun a => Fin.ext (by match a with | ⟨0, _⟩ => rfl | ⟨1, _⟩ => rfl)
theorem idx_label_i (b : Fin 128) (i k : Fin 1024) : idx_main_v15 (idx_main_v19 (ix3 b i k)) = ix2 b i :=
  funext fun a => Fin.ext (by match a with | ⟨0, _⟩ => rfl | ⟨1, _⟩ => rfl)
theorem idx_label_k (b : Fin 128) (i k : Fin 1024) : idx_main_v18 (idx_main_v20 (ix3 b i k)) = ix2 b k :=
  funext fun a => Fin.ext (by match a with | ⟨0, _⟩ => rfl | ⟨1, _⟩ => rfl)

/-! ## The masked hinge at an entry -/

/-- The array the reference sums holds, at (b, i, k), the term of the pair (i, k) of row b. -/
theorem stage_apply (x0 : (⟨S128x1024, .f32⟩ : BufTy).Contents (Elt Ideal)) (x1 : (⟨S128x1024, .i32⟩ : BufTy).Contents (Elt Ideal))
    (b : Fin 128) (i k : Fin 1024) :
    val_main_v24 (F := Ideal) x0 x1 (ix3 b i k)
      = pairTerm (x0 (ix2 b i)) (x0 (ix2 b k)) (x1 (ix2 b i)) (x1 (ix2 b k)) := by
  simp only [val_main_v24_apply, val_main_v21_apply, val_main_v19_apply, val_main_v15_apply, val_main_v14_apply,
    val_main_v13_apply, val_main_c_apply, val_main_v20_apply, val_main_v18_apply, val_main_v17_apply, val_main_v16_apply,
    val_main_c_2_apply, val_main_v23_apply, val_main_v12_apply, val_main_v10_apply, val_main_v8_apply, val_main_v7_apply,
    val_main_cst_1_apply, val_main_v6_apply, val_main_v5_apply, val_main_v4_apply, val_main_cst_0_apply, val_main_v3_apply,
    val_main_v2_apply, val_main_cst_apply, val_main_v1_apply, val_main_v0_apply, val_main_v11_apply, val_main_v9_apply,
    val_main_v22_apply, val_main_cst_3_apply, val_main_call0_v1_apply, val_main_call0_v0_apply, val_main_cst_4_apply,
    idx_score_i, idx_score_k, idx_label_i, idx_label_k, spelled_logistic]
  rfl

/-! ## The total -/

/-- THE REFERENCE'S RESULT: the loss in its pairwise form — zero plus the sum over rows and pairs of the pairs' terms. -/
theorem result_eq (x0 : (⟨S128x1024, .f32⟩ : BufTy).Contents (Elt Ideal)) (x1 : (⟨S128x1024, .i32⟩ : BufTy).Contents (Elt Ideal)) :
    val_main_v25 (F := Ideal) x0 x1
      = fun _ => pairLoss (fun b l => x0 (ix2 b l)) (fun b l => x1 (ix2 b l)) := by
  funext j
  rw [val_main_v25_apply, sum_idx3]
  simp only [stage_apply]
  rfl

end Cert.ReferenceIdeal.Pairs

end
-- ==== Proof.LibAllReal.lean ====
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx
import Idealize.ShloMosaic.Lib.ValueLayout

/-!
# Arrays of extended reals all of whose entries are real numbers

At the extended reals [-∞, +∞] an entry is called real when it is (the reading of) a real number,
that is, neither infinity.  An array is *all real* when every one of its entries is.  This file
holds the definition and the test by which an entry is recognised as real: its absolute value
lies strictly below +∞.
-/

noncomputable section

namespace Idealize.ShloMosaic.AllReal

open Idealize.ShloMosaic
open scoped BigOperators

/-- An array of extended reals is all real when each entry is the reading of a real number. -/
def _root_.Idealize.ShloMosaic.AllReal {s : Shape} (v : s.Idx → EReal) : Prop := ∀ i, ∃ r : ℝ, v i = (r : EReal)

/-- An extended real whose absolute value `max x (-x)` lies strictly below +∞ is a real number:
    it is not +∞ (then the maximum is +∞) and not -∞ (then its negation is +∞). -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

end Idealize.ShloMosaic.AllReal

end
-- ==== Proof.Finite.lean ====
/-
  The precondition gives real arguments.

  The precondition says that the conjunction, over every entry x of the first argument, of |x| < +inf is true. A
  conjunction that came out true had every conjunct true, and an extended real whose absolute value lies below +inf is
  a real number. So every entry of the first argument is a real.
-/
import proofs.«164452_j3332894622720_2_alg».proof.Pre_finite_inputs
import proofs.«164452_j3332894622720_2_alg».proof.Proof.LibAllReal
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Reals

open Cert.Pre_finite_inputs Idealize.ShloMosaic Idealize.ShloMosaic.ValueIdx

variable [Facts]
open Facts

/-- The shape of a scalar has one index. -/
instance : Subsingleton S_.Idx := ⟨fun a b => funext fun d => d.elim0⟩

/-- The float word of +inf is the extended real +inf. -/
theorem inf_word : Ideal.ofBits .f32 0x7F800000#32 = ⊤ := by simp [Ideal.ofBits, Ideal.ieee]

/-- Where the precondition holds, every entry of the first argument is a real. -/
theorem real_of_pre (x : FVec Ideal S128x1024 .f32) (y : IVec S128x1024 32)
    (h : fn (F := Ideal) x y = fun _ => 1#1) : AllReal x := by
  intro i
  have h0 := congrFun h ix0
  dsimp only [fn] at h0
  have hi := Host.reduce_andi_all _ _ _ _ ix0 h0 i
  refine AllReal.real_of_abs_lt_top (x i) ?_
  have hb : broadcastInDim S128x1024 ![] bcast_S_S128x1024 (constant (F := Ideal) S_ .f32 0x7F800000#32) i = Ideal.ofBits .f32 0x7F800000#32 :=
    broadcastInDim_apply _ bcast_S_S128x1024 _ i ix0 (fun a => a.elim0)
  have hc : Ideal.cmp .olt (max (x i) (-(x i))) (Ideal.ofBits .f32 0x7F800000#32) = 1#1 := by
    rw [← hb]; exact hi
  rw [inf_word] at hc
  unfold Ideal.cmp at hc
  by_contra hlt
  simp [hlt] at hc

end Cert.Pre_finite_inputs.Reals

end
-- ==== Proof.lean ====
/-
  A pairwise hinge ranking loss computed without its pairs.

  For scores p = logistic(x) and labels w, both [128, 1024], the loss is the sum over rows b and pairs (i, k) with
  w(b,i) = 0 and w(b,k) = 1 of max (1 + p(b,i) - p(b,k)) 0. The reference builds all 128 × 1024 × 1024 terms and adds
  them. The kernel never forms a pair: per row it counts the labels 0 and 1 (n0, n1), sums the scores over each kind
  (sum0, sum1) and writes n0 * n1 * 1 + n1 * sum0 - n0 * sum1; the host adds the 128 row values.

  The two agree because a logistic score of a real lies strictly between 0 and 1, so 1 + p(b,i) - p(b,k) is positive
  and the maximum with zero is the term itself; the double sum over the pairs of a row then splits into the products of
  counts and masked sums (HingeLaw). That step is an identity of real numbers, which is where the precondition is used:
  every entry of the first argument is finite, hence a real (Finite), hence its logistic score a real.

  The kernel's side: one row of a block is the row's separated form (KernelRow); the four blocks of 32 rows tile the
  [128, 1] result, which so holds the losses of all rows (KernelArray); the host's sum of that array is the loss in its
  separated form (KernelRun). The reference's side: the summed array at (b, i, k) is the pair's term, and the sum over a
  rank-3 index set is the triple sum (Reference). Both programs' logistic functions are one function on the extended
  reals, the reference's 1 / (1 + exp (-x)) being its definition. No operation of the kernel was rewritten by the
  idealization, so that conjunct is trivial; the three frames are the generated ones.
-/
import proofs.«164452_j3332894622720_2_alg».proof.Defs
import proofs.«164452_j3332894622720_2_alg».proof.Proof.Gen.Kernel
import proofs.«164452_j3332894622720_2_alg».proof.Proof.Gen.Kernel.Skeleton
import proofs.«164452_j3332894622720_2_alg».proof.Proof.Gen.Kernel.Launch
import proofs.«164452_j3332894622720_2_alg».proof.Proof.Gen.Kernel.Points
import proofs.«164452_j3332894622720_2_alg».proof.Proof.Gen.Kernel.Frame
import proofs.«164452_j3332894622720_2_alg».proof.Proof.Gen.KernelIdeal
import proofs.«164452_j3332894622720_2_alg».proof.Proof.Gen.KernelIdeal.Skeleton
import proofs.«164452_j3332894622720_2_alg».proof.Proof.Gen.KernelIdeal.Launch
import proofs.«164452_j3332894622720_2_alg».proof.Proof.Gen.KernelIdeal.Points
import proofs.«164452_j3332894622720_2_alg».proof.Proof.Gen.KernelIdeal.Frame
import proofs.«164452_j3332894622720_2_alg».proof.Proof.Gen.ReferenceIdeal
import proofs.«164452_j3332894622720_2_alg».proof.Proof.Gen.ReferenceIdeal.Run
import proofs.«164452_j3332894622720_2_alg».proof.Proof.Gen.ReferenceIdeal.Read
import proofs.«164452_j3332894622720_2_alg».proof.Proof.Gen.Pre_finite_inputs
import proofs.«164452_j3332894622720_2_alg».proof.Proof.HingeLaw
import proofs.«164452_j3332894622720_2_alg».proof.Proof.KernelRun
import proofs.«164452_j3332894622720_2_alg».proof.Proof.Reference
import proofs.«164452_j3332894622720_2_alg».proof.Proof.Finite
import Idealize.ShloMosaic.Adequacy
import Idealize.ShloMosaic.Init

noncomputable section

namespace Cert.Proof

open Idealize.ShloMosaic Idealize.ShloMosaic.ValueIdx Idealize.SL.Sem Cert.Hinge

/-- The three frames: the two kernels' generated frames, and the reference's generated run with its result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the loss of the arguments: the kernel at its separated form, the reference at its pairwise
    form, which over the real entries the precondition gives is the separated form. -/
theorem algebraic : Cert.algebraic_KernelIdeal_ReferenceIdeal := by
  intro m ρ m' ρ' hpre hagree
  refine ⟨_, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Pairs.result_eq, (hagree c).1, (hagree c).2]
  funext _
  exact loss_bridge _ _ (fun b l => Cert.Pre_finite_inputs.Reals.real_of_pre _ _ (hpre c) (ix2 b l))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
